-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4x8 : Shape := ⟨3, ![512, 4, 8]⟩
abbrev S_ : Shape := ⟨0, ![]⟩

class Facts : Prop where
  bcast_S_S512x4x8 : S_.BroadcastsInDim S512x4x8 (![] : Fin 0 → Fin S512x4x8.rank)
  reducesTo_S512x4x8_S_d0_1_2 : S512x4x8.ReducesTo [0, 1, 2] S_
  h_S_ : 0 < S_.numel

variable [Facts]

def fn {F : FTy → Type} [FloatOps F] (main_arg0 : FVec F S512x4x8 .f32) : IVec S_ 1 :=
  let main_v0 : FVec F S512x4x8 .f32 := Host.absf main_arg0
  let main_cst : FVec F S_ .f32 := constant S_ .f32 0x7F800000#32
  let main_v1 : FVec F S512x4x8 .f32 := broadcastInDim S512x4x8 ![] bcast_S_S512x4x8 main_cst
  let main_v2 : IVec S512x4x8 1 := cmpf .olt main_v0 main_v1
  let main_c : IVec S_ 1 := constantI S_ 1 1#1
  let main_v3 : IVec S_ 1 := (fun x v => Host.reduce IntOp.andi x v reducesTo_S512x4x8_S_d0_1_2 h_S_) main_v2 main_c
  main_v3
-- ==== Kernel.lean ====
abbrev S512x4x8 : Shape := ⟨3, ![512, 4, 8]⟩
abbrev S512x65536 : Shape := ⟨2, ![512, 65536]⟩
abbrev S16x4x8 : Shape := ⟨3, ![16, 4, 8]⟩
abbrev S16x65536 : Shape := ⟨2, ![16, 65536]⟩
abbrev S16x4x1 : Shape := ⟨3, ![16, 4, 1]⟩
abbrev S16x4 : Shape := ⟨2, ![16, 4]⟩
abbrev S16x1 : Shape := ⟨2, ![16, 1]⟩
abbrev S16x16 : Shape := ⟨2, ![16, 16]⟩
abbrev S16x64 : Shape := ⟨2, ![16, 64]⟩
abbrev S16x256 : Shape := ⟨2, ![16, 256]⟩
abbrev S16x1024 : Shape := ⟨2, ![16, 1024]⟩
abbrev S16x4096 : Shape := ⟨2, ![16, 4096]⟩
abbrev S16x16384 : Shape := ⟨2, ![16, 16384]⟩

abbrev nBuf : Space → Nat
  | .hbm => 2
  | .vmem => 4
  | .smem => 0
  | _ => 0

abbrev bufTy : (tb : Table) → Fin (tcTables nBuf tb) → BufTy
  | .hbm, ⟨0, _⟩ => ⟨S512x4x8, .f32⟩
  | .hbm, ⟨1, _⟩ => ⟨S512x65536, .f32⟩
  | .local _ .vmem, ⟨0, _⟩ => ⟨S16x4x8, .f32⟩
  | .local _ .vmem, ⟨1, _⟩ => ⟨S16x4x8, .f32⟩
  | .local _ .vmem, ⟨2, _⟩ => ⟨S16x65536, .f32⟩
  | .local _ .vmem, ⟨3, _⟩ => ⟨S16x65536, .f32⟩
  | _, _ => ⟨S512x4x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x4x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16x4x8_S16x4x8_0_0_0 : ∀ a, (![0, 0, 0] : Fin 3 → Nat) a + S16x4x8.size a ≤ S16x4x8.size a
  h_S16x4x8 : 0 < S16x4x8.numel
  slices_S16x4x8_o0_0_7_S16x4x1 : S16x4x8.Slices ![0, 0, 7] S16x4x1
  shapeCasts_S16x4x1_S16x4 : S16x4x1.ShapeCasts S16x4
  slices_S16x4x8_o0_0_6_S16x4x1 : S16x4x8.Slices ![0, 0, 6] S16x4x1
  slices_S16x4_o0_0_S16x1 : S16x4.Slices ![0, 0] S16x1
  broadcasts_S16x1_S16x4 : S16x1.Broadcasts S16x4
  slices_S16x4_o0_1_S16x1 : S16x4.Slices ![0, 1] S16x1
  slices_S16x4_o0_2_S16x1 : S16x4.Slices ![0, 2] S16x1
  slices_S16x4_o0_3_S16x1 : S16x4.Slices ![0, 3] S16x1
  concatenates_S16x4_S16x4_S16x4_S16x4_S16x16_d1 : Shape.Concatenates [S16x4, S16x4, S16x4, S16x4] S16x16 1
  slices_S16x4x8_o0_0_5_S16x4x1 : S16x4x8.Slices ![0, 0, 5] S16x4x1
  broadcasts_S16x1_S16x16 : S16x1.Broadcasts S16x16
  concatenates_S16x16_S16x16_S16x16_S16x16_S16x64_d1 : Shape.Concatenates [S16x16, S16x16, S16x16, S16x16] S16x64 1
  slices_S16x4x8_o0_0_4_S16x4x1 : S16x4x8.Slices ![0, 0, 4] S16x4x1
  broadcasts_S16x1_S16x64 : S16x1.Broadcasts S16x64
  concatenates_S16x64_S16x64_S16x64_S16x64_S16x256_d1 : Shape.Concatenates [S16x64, S16x64, S16x64, S16x64] S16x256 1
  slices_S16x4x8_o0_0_3_S16x4x1 : S16x4x8.Slices ![0, 0, 3] S16x4x1
  broadcasts_S16x1_S16x256 : S16x1.Broadcasts S16x256
  concatenates_S16x256_S16x256_S16x256_S16x256_S16x1024_d1 : Shape.Concatenates [S16x256, S16x256, S16x256, S16x256] S16x1024 1
  slices_S16x4x8_o0_0_2_S16x4x1 : S16x4x8.Slices ![0, 0, 2] S16x4x1
  broadcasts_S16x1_S16x1024 : S16x1.Broadcasts S16x1024
  concatenates_S16x1024_S16x1024_S16x1024_S16x1024_S16x4096_d1 : Shape.Concatenates [S16x1024, S16x1024, S16x1024, S16x1024] S16x4096 1
  slices_S16x4x8_o0_0_1_S16x4x1 : S16x4x8.Slices ![0, 0, 1] S16x4x1
  broadcasts_S16x1_S16x4096 : S16x1.Broadcasts S16x4096
  concatenates_S16x4096_S16x4096_S16x4096_S16x4096_S16x16384_d1 : Shape.Concatenates [S16x4096, S16x4096, S16x4096, S16x4096] S16x16384 1
  slices_S16x4x8_o0_0_0_S16x4x1 : S16x4x8.Slices ![0, 0, 0] S16x4x1
  broadcasts_S16x1_S16x16384 : S16x1.Broadcasts S16x16384
  concatenates_S16x16384_S16x16384_S16x16384_S16x16384_S16x65536_d1 : Shape.Concatenates [S16x16384, S16x16384, S16x16384, S16x16384] S16x65536 1
  inb_S16x65536_S16x65536_0_0 : ∀ a, (![0, 0] : Fin 2 → Nat) a + S16x65536.size a ≤ S16x65536.size a
  h_S16x65536 : 0 < S16x65536.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x4x8.size a ≤ S512x4x8.size a
  hwx0_0 : ∀ i : grid0.Coords, EltTy.bits .f32 = 32 ∨ (Rect.block (s := S512x4x8) S16x4x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x65536.size a ≤ S512x65536.size a
  hwx0_1 : ∀ i : grid0.Coords, EltTy.bits .f32 = 32 ∨ (Rect.block (s := S512x65536) S16x65536.size (cc0_transform_1 i) (hinb0_1 i)).WholeWords (EltTy.packing .f32)

variable [Facts₀]

abbrev win0_0 : Pipeline.Window sig grid0 :=
  Pipeline.Window.ofSpec (Memref.whole main_arg0) S16x4x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x65536.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x4x8 : Shape := ⟨3, ![512, 4, 8]⟩
abbrev S512x4x1 : Shape := ⟨3, ![512, 4, 1]⟩
abbrev S512x4 : Shape := ⟨2, ![512, 4]⟩
abbrev S512x1x4 : Shape := ⟨3, ![512, 1, 4]⟩
abbrev S512x4x4 : Shape := ⟨3, ![512, 4, 4]⟩
abbrev S512x16 : Shape := ⟨2, ![512, 16]⟩
abbrev S512x16x1 : Shape := ⟨3, ![512, 16, 1]⟩
abbrev S512x16x4 : Shape := ⟨3, ![512, 16, 4]⟩
abbrev S512x64 : Shape := ⟨2, ![512, 64]⟩
abbrev S512x64x1 : Shape := ⟨3, ![512, 64, 1]⟩
abbrev S512x64x4 : Shape := ⟨3, ![512, 64, 4]⟩
abbrev S512x256 : Shape := ⟨2, ![512, 256]⟩
abbrev S512x256x1 : Shape := ⟨3, ![512, 256, 1]⟩
abbrev S512x256x4 : Shape := ⟨3, ![512, 256, 4]⟩
abbrev S512x1024 : Shape := ⟨2, ![512, 1024]⟩
abbrev S512x1024x1 : Shape := ⟨3, ![512, 1024, 1]⟩
abbrev S512x1024x4 : Shape := ⟨3, ![512, 1024, 4]⟩
abbrev S512x4096 : Shape := ⟨2, ![512, 4096]⟩
abbrev S512x4096x1 : Shape := ⟨3, ![512, 4096, 1]⟩
abbrev S512x4096x4 : Shape := ⟨3, ![512, 4096, 4]⟩
abbrev S512x16384 : Shape := ⟨2, ![512, 16384]⟩
abbrev S512x16384x1 : Shape := ⟨3, ![512, 16384, 1]⟩
abbrev S512x16384x4 : Shape := ⟨3, ![512, 16384, 4]⟩
abbrev S512x65536 : Shape := ⟨2, ![512, 65536]⟩

abbrev nBuf : Space → Nat
  | .hbm => 59
  | .vmem => 0
  | .smem => 0
  | _ => 0

abbrev bufTy : (tb : Table) → Fin (tcTables nBuf tb) → BufTy
  | .hbm, ⟨0, _⟩ => ⟨S512x4x8, .f32⟩
  | .hbm, ⟨1, _⟩ => ⟨S512x4x1, .f32⟩
  | .hbm, ⟨2, _⟩ => ⟨S512x4, .f32⟩
  | .hbm, ⟨3, _⟩ => ⟨S512x4x1, .f32⟩
  | .hbm, ⟨4, _⟩ => ⟨S512x4x1, .f32⟩
  | .hbm, ⟨5, _⟩ => ⟨S512x4, .f32⟩
  | .hbm, ⟨6, _⟩ => ⟨S512x1x4, .f32⟩
  | .hbm, ⟨7, _⟩ => ⟨S512x4x4, .f32⟩
  | .hbm, ⟨8, _⟩ => ⟨S512x4x4, .f32⟩
  | .hbm, ⟨9, _⟩ => ⟨S512x4x4, .f32⟩
  | .hbm, ⟨10, _⟩ => ⟨S512x16, .f32⟩
  | .hbm, ⟨11, _⟩ => ⟨S512x16x1, .f32⟩
  | .hbm, ⟨12, _⟩ => ⟨S512x4x1, .f32⟩
  | .hbm, ⟨13, _⟩ => ⟨S512x4, .f32⟩
  | .hbm, ⟨14, _⟩ => ⟨S512x1x4, .f32⟩
  | .hbm, ⟨15, _⟩ => ⟨S512x16x4, .f32⟩
  | .hbm, ⟨16, _⟩ => ⟨S512x16x4, .f32⟩
  | .hbm, ⟨17, _⟩ => ⟨S512x16x4, .f32⟩
  | .hbm, ⟨18, _⟩ => ⟨S512x64, .f32⟩
  | .hbm, ⟨19, _⟩ => ⟨S512x64x1, .f32⟩
  | .hbm, ⟨20, _⟩ => ⟨S512x4x1, .f32⟩
  | .hbm, ⟨21, _⟩ => ⟨S512x4, .f32⟩
  | .hbm, ⟨22, _⟩ => ⟨S512x1x4, .f32⟩
  | .hbm, ⟨23, _⟩ => ⟨S512x64x4, .f32⟩
  | .hbm, ⟨24, _⟩ => ⟨S512x64x4, .f32⟩
  | .hbm, ⟨25, _⟩ => ⟨S512x64x4, .f32⟩
  | .hbm, ⟨26, _⟩ => ⟨S512x256, .f32⟩
  | .hbm, ⟨27, _⟩ => ⟨S512x256x1, .f32⟩
  | .hbm, ⟨28, _⟩ => ⟨S512x4x1, .f32⟩
  | .hbm, ⟨29, _⟩ => ⟨S512x4, .f32⟩
  | .hbm, ⟨30, _⟩ => ⟨S512x1x4, .f32⟩
  | .hbm, ⟨31, _⟩ => ⟨S512x256x4, .f32⟩
  | .hbm, ⟨32, _⟩ => ⟨S512x256x4, .f32⟩
  | .hbm, ⟨33, _⟩ => ⟨S512x256x4, .f32⟩
  | .hbm, ⟨34, _⟩ => ⟨S512x1024, .f32⟩
  | .hbm, ⟨35, _⟩ => ⟨S512x1024x1, .f32⟩
  | .hbm, ⟨36, _⟩ => ⟨S512x4x1, .f32⟩
  | .hbm, ⟨37, _⟩ => ⟨S512x4, .f32⟩
  | .hbm, ⟨38, _⟩ => ⟨S512x1x4, .f32⟩
  | .hbm, ⟨39, _⟩ => ⟨S512x1024x4, .f32⟩
  | .hbm, ⟨40, _⟩ => ⟨S512x1024x4, .f32⟩
  | .hbm, ⟨41, _⟩ => ⟨S512x1024x4, .f32⟩
  | .hbm, ⟨42, _⟩ => ⟨S512x4096, .f32⟩
  | .hbm, ⟨43, _⟩ => ⟨S512x4096x1, .f32⟩
  | .hbm, ⟨44, _⟩ => ⟨S512x4x1, .f32⟩
  | .hbm, ⟨45, _⟩ => ⟨S512x4, .f32⟩
  | .hbm, ⟨46, _⟩ => ⟨S512x1x4, .f32⟩
  | .hbm, ⟨47, _⟩ => ⟨S512x4096x4, .f32⟩
  | .hbm, ⟨48, _⟩ => ⟨S512x4096x4, .f32⟩
  | .hbm, ⟨49, _⟩ => ⟨S512x4096x4, .f32⟩
  | .hbm, ⟨50, _⟩ => ⟨S512x16384, .f32⟩
  | .hbm, ⟨51, _⟩ => ⟨S512x16384x1, .f32⟩
  | .hbm, ⟨52, _⟩ => ⟨S512x4x1, .f32⟩
  | .hbm, ⟨53, _⟩ => ⟨S512x4, .f32⟩
  | .hbm, ⟨54, _⟩ => ⟨S512x1x4, .f32⟩
  | .hbm, ⟨55, _⟩ => ⟨S512x16384x4, .f32⟩
  | .hbm, ⟨56, _⟩ => ⟨S512x16384x4, .f32⟩
  | .hbm, ⟨57, _⟩ => ⟨S512x16384x4, .f32⟩
  | .hbm, ⟨58, _⟩ => ⟨S512x65536, .f32⟩
  | _, _ => ⟨S512x4x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩

abbrev nD : Nat := 1
abbrev τ : Topo := Topo.v7x

variable {F : FTy → Type} [FloatOps F]

class Facts₀ : Prop where
  slices_S512x4x8_S512x4x1_0_0_0 : S512x4x8.Slices ![0, 0, 0] S512x4x1
  shapeCasts_S512x4x1_S512x4 : S512x4x1.ShapeCasts S512x4
  bcast_S512x4_S512x4x1_0_1 : S512x4.BroadcastsInDim S512x4x1 (![0, 1] : Fin 2 → Fin S512x4x1.rank)
  slices_S512x4x8_S512x4x1_0_0_1 : S512x4x8.Slices ![0, 0, 1] S512x4x1
  bcast_S512x4_S512x1x4_0_2 : S512x4.BroadcastsInDim S512x1x4 (![0, 2] : Fin 2 → Fin S512x1x4.rank)
  bcast_S512x4x1_S512x4x4_0_1_2 : S512x4x1.BroadcastsInDim S512x4x4 (![0, 1, 2] : Fin 3 → Fin S512x4x4.rank)
  bcast_S512x1x4_S512x4x4_0_1_2 : S512x1x4.BroadcastsInDim S512x4x4 (![0, 1, 2] : Fin 3 → Fin S512x4x4.rank)
  shapeCasts_S512x4x4_S512x16 : S512x4x4.ShapeCasts S512x16
  bcast_S512x16_S512x16x1_0_1 : S512x16.BroadcastsInDim S512x16x1 (![0, 1] : Fin 2 → Fin S512x16x1.rank)
  slices_S512x4x8_S512x4x1_0_0_2 : S512x4x8.Slices ![0, 0, 2] S512x4x1
  bcast_S512x16x1_S512x16x4_0_1_2 : S512x16x1.BroadcastsInDim S512x16x4 (![0, 1, 2] : Fin 3 → Fin S512x16x4.rank)
  bcast_S512x1x4_S512x16x4_0_1_2 : S512x1x4.BroadcastsInDim S512x16x4 (![0, 1, 2] : Fin 3 → Fin S512x16x4.rank)
  shapeCasts_S512x16x4_S512x64 : S512x16x4.ShapeCasts S512x64
  bcast_S512x64_S512x64x1_0_1 : S512x64.BroadcastsInDim S512x64x1 (![0, 1] : Fin 2 → Fin S512x64x1.rank)
  slices_S512x4x8_S512x4x1_0_0_3 : S512x4x8.Slices ![0, 0, 3] S512x4x1
  bcast_S512x64x1_S512x64x4_0_1_2 : S512x64x1.BroadcastsInDim S512x64x4 (![0, 1, 2] : Fin 3 → Fin S512x64x4.rank)
  bcast_S512x1x4_S512x64x4_0_1_2 : S512x1x4.BroadcastsInDim S512x64x4 (![0, 1, 2] : Fin 3 → Fin S512x64x4.rank)
  shapeCasts_S512x64x4_S512x256 : S512x64x4.ShapeCasts S512x256
  bcast_S512x256_S512x256x1_0_1 : S512x256.BroadcastsInDim S512x256x1 (![0, 1] : Fin 2 → Fin S512x256x1.rank)
  slices_S512x4x8_S512x4x1_0_0_4 : S512x4x8.Slices ![0, 0, 4] S512x4x1
  bcast_S512x256x1_S512x256x4_0_1_2 : S512x256x1.BroadcastsInDim S512x256x4 (![0, 1, 2] : Fin 3 → Fin S512x256x4.rank)
  bcast_S512x1x4_S512x256x4_0_1_2 : S512x1x4.BroadcastsInDim S512x256x4 (![0, 1, 2] : Fin 3 → Fin S512x256x4.rank)
  shapeCasts_S512x256x4_S512x1024 : S512x256x4.ShapeCasts S512x1024
  bcast_S512x1024_S512x1024x1_0_1 : S512x1024.BroadcastsInDim S512x1024x1 (![0, 1] : Fin 2 → Fin S512x1024x1.rank)
  slices_S512x4x8_S512x4x1_0_0_5 : S512x4x8.Slices ![0, 0, 5] S512x4x1
  bcast_S512x1024x1_S512x1024x4_0_1_2 : S512x1024x1.BroadcastsInDim S512x1024x4 (![0, 1, 2] : Fin 3 → Fin S512x1024x4.rank)
  bcast_S512x1x4_S512x1024x4_0_1_2 : S512x1x4.BroadcastsInDim S512x1024x4 (![0, 1, 2] : Fin 3 → Fin S512x1024x4.rank)
  shapeCasts_S512x1024x4_S512x4096 : S512x1024x4.ShapeCasts S512x4096
  bcast_S512x4096_S512x4096x1_0_1 : S512x4096.BroadcastsInDim S512x4096x1 (![0, 1] : Fin 2 → Fin S512x4096x1.rank)
  slices_S512x4x8_S512x4x1_0_0_6 : S512x4x8.Slices ![0, 0, 6] S512x4x1
  bcast_S512x4096x1_S512x4096x4_0_1_2 : S512x4096x1.BroadcastsInDim S512x4096x4 (![0, 1, 2] : Fin 3 → Fin S512x4096x4.rank)
  bcast_S512x1x4_S512x4096x4_0_1_2 : S512x1x4.BroadcastsInDim S512x4096x4 (![0, 1, 2] : Fin 3 → Fin S512x4096x4.rank)
  shapeCasts_S512x4096x4_S512x16384 : S512x4096x4.ShapeCasts S512x16384
  bcast_S512x16384_S512x16384x1_0_1 : S512x16384.BroadcastsInDim S512x16384x1 (![0, 1] : Fin 2 → Fin S512x16384x1.rank)
  slices_S512x4x8_S512x4x1_0_0_7 : S512x4x8.Slices ![0, 0, 7] S512x4x1
  bcast_S512x16384x1_S512x16384x4_0_1_2 : S512x16384x1.BroadcastsInDim S512x16384x4 (![0, 1, 2] : Fin 3 → Fin S512x16384x4.rank)
  bcast_S512x1x4_S512x16384x4_0_1_2 : S512x1x4.BroadcastsInDim S512x16384x4 (![0, 1, 2] : Fin 3 → Fin S512x16384x4.rank)
  shapeCasts_S512x16384x4_S512x65536 : S512x16384x4.ShapeCasts S512x65536

variable [Facts₀]

class Facts : Prop extends Facts₀ where

variable [Facts]
-- ==== Proof.LibScaledConcat.lean ====
/-
  Four scaled copies of a block laid side by side.

  Let `col` be an `a × 4` array and `cp` an `a × w` array. For `n = 0, 1, 2, 3` scale every row `b` of `cp` by the
  entry `col (b, n)` — column `n` of `col` cut out as an `a × 1` array, stretched to `a × w` and multiplied into `cp` —
  and lay the four results side by side along the second axis. The `a × 4w` array obtained reads, at `(b, j)`,
  `col (b, j / w) * cp (b, j % w)`: the quotient of the column index names the copy, the remainder the place in it.
  This is one step of building a row-wise Kronecker (outer) product of vectors, the new factor being the slowest digit.
-/
import Idealize.ShloMosaic.Lib.Pipeline.Value
import Idealize.ShloMosaic.Lib.ValueIdx
import Idealize.ShloMosaic.Lib.ValueLayout
import Idealize.ShloMosaic.PureOps.Ideal

noncomputable section

namespace ScaledConcat

open Idealize.ShloMosaic Idealize.ShloMosaic.ValueIdx

variable {φ : FTy} {a w : ℕ}

/-- Column `k` of `col`, stretched along the rows of `cp` and multiplied into it. -/
def scaled (col : FVec Ideal ⟨2, ![a, 4]⟩ φ) (cp : FVec Ideal ⟨2, ![a, w]⟩ φ) (k : ℕ)
    (hs : (⟨2, ![a, 4]⟩ : Shape).Slices ![0, k] ⟨2, ![a, 1]⟩) (hb : (⟨2, ![a, 1]⟩ : Shape).Broadcasts ⟨2, ![a, w]⟩) :
    FVec Ideal ⟨2, ![a, w]⟩ φ :=
  mulf (broadcastTo ⟨2, ![a, w]⟩ (extractStridedSlice ⟨2, ![a, 1]⟩ ![0, k] col hs) hb) cp

/-- An `a × 1` column stretched to `a × w` reads, at `(b, r)`, the column at `(b, 0)`. -/
theorem stretch_apply (v : FVec Ideal ⟨2, ![a, 1]⟩ φ) (hb : (⟨2, ![a, 1]⟩ : Shape).Broadcasts ⟨2, ![a, w]⟩)
    (b : Fin a) (r : Fin w) : broadcastTo ⟨2, ![a, w]⟩ v hb (ix2 b r) = v (ix2 b (0 : Fin 1)) := by
  refine broadcastTo_apply v hb (ix2 b r) (ix2 b (0 : Fin 1)) (fun ax => ?_)
  match ax with
  | ⟨0, _⟩ =>
    show b.val = if a = 1 then 0 else b.val
    by_cases h : a = 1
    · rw [if_pos h]; have := b.isLt; omega
    · rw [if_neg h]
  | ⟨1, _⟩ =>
    show (0 : ℕ) = if (1 : ℕ) = 1 then 0 else r.val
    rw [if_pos rfl]

/-- A scaled copy at `(b, r)` is the scaling entry `col (b, k)` times `cp (b, r)`. -/
theorem scaled_apply (col : FVec Ideal ⟨2, ![a, 4]⟩ φ) (cp : FVec Ideal ⟨2, ![a, w]⟩ φ) (k : ℕ)
    (hs : (⟨2, ![a, 4]⟩ : Shape).Slices ![0, k] ⟨2, ![a, 1]⟩) (hb : (⟨2, ![a, 1]⟩ : Shape).Broadcasts ⟨2, ![a, w]⟩)
    (b : Fin a) (r : Fin w) (n : Fin 4) (hn : n.val = k) :
    scaled col cp k hs hb (ix2 b r) = col (ix2 b n) * cp (ix2 b r) := by
  unfold scaled
  rw [mulf_apply, stretch_apply, slice2_axis1_apply k col hs b (0 : Fin 1) n (by rw [hn]; rfl)]

/-- The four scaled copies side by side read, at `(b, j)`, `col (b, j / w) * cp (b, j % w)`; the quotient `n` and the
    remainder `r` are given with their defining equations, so that a caller at literal widths supplies them by arithmetic. -/
theorem concat4_apply {W : ℕ} (col : FVec Ideal ⟨2, ![a, 4]⟩ φ) (cp : FVec Ideal ⟨2, ![a, w]⟩ φ)
    (hs0 : (⟨2, ![a, 4]⟩ : Shape).Slices ![0, 0] ⟨2, ![a, 1]⟩) (hs1 : (⟨2, ![a, 4]⟩ : Shape).Slices ![0, 1] ⟨2, ![a, 1]⟩)
    (hs2 : (⟨2, ![a, 4]⟩ : Shape).Slices ![0, 2] ⟨2, ![a, 1]⟩) (hs3 : (⟨2, ![a, 4]⟩ : Shape).Slices ![0, 3] ⟨2, ![a, 1]⟩)
    (hb : (⟨2, ![a, 1]⟩ : Shape).Broadcasts ⟨2, ![a, w]⟩)
    (hcat : Shape.Concatenates [⟨2, ![a, w]⟩, ⟨2, ![a, w]⟩, ⟨2, ![a, w]⟩, ⟨2, ![a, w]⟩] ⟨2, ![a, W]⟩ 1)
    (b : Fin a) (j : Fin W) (n : Fin 4) (hn : j.val / w = n.val) (r : Fin w) (hr : r.val = j.val % w) :
    concatenate ⟨2, ![a, W]⟩ 1
        [⟨⟨2, ![a, w]⟩, scaled col cp 0 hs0 hb⟩, ⟨⟨2, ![a, w]⟩, scaled col cp 1 hs1 hb⟩,
         ⟨⟨2, ![a, w]⟩, scaled col cp 2 hs2 hb⟩, ⟨⟨2, ![a, w]⟩, scaled col cp 3 hs3 hb⟩] hcat (ix2 b j)
      = col (ix2 b n) * cp (ix2 b r) := by
  -- the four copies as a family indexed by the copy's number
  let f : Fin 4 → FVec Ideal ⟨2, ![a, w]⟩ φ := fun n => match n with
    | ⟨0, _⟩ => scaled col cp 0 hs0 hb
    | ⟨1, _⟩ => scaled col cp 1 hs1 hb
    | ⟨2, _⟩ => scaled col cp 2 hs2 hb
    | ⟨3, _⟩ => scaled col cp 3 hs3 hb
  have key : concatenate ⟨2, ![a, W]⟩ 1
      (List.ofFn fun n : Fin 4 => (⟨⟨2, ![a, w]⟩, f n⟩ : (s : Shape) × (s.Idx → Ideal φ))) hcat (ix2 b j) = f n (ix2 b r) :=
    concatenate_ofFn_apply (t := ⟨2, ![a, W]⟩) (s₁ := ⟨2, ![a, w]⟩) (1 : Fin 2) f hcat rfl w rfl (ix2 b j) n hn (ix2 b r) hr
      (fun ax hax => by
        match ax with
        | ⟨0, _⟩ => rfl
        | ⟨1, _⟩ => exact absurd rfl hax)
  refine Eq.trans ?_ (key.trans ?_)
  · rfl
  · match n, hn with
    | ⟨0, _⟩, _ => exact scaled_apply col cp 0 hs0 hb b r _ rfl
    | ⟨1, _⟩, _ => exact scaled_apply col cp 1 hs1 hb b r _ rfl
    | ⟨2, _⟩, _ => exact scaled_apply col cp 2 hs2 hb b r _ rfl
    | ⟨3, _⟩, _ => exact scaled_apply col cp 3 hs3 hb b r _ rfl

end ScaledConcat

end
-- ==== Proof.OuterSpec.lean ====
/-
  The row-wise outer product of eight length-4 vectors, as one function of the array.

  The input is an `R × 4 × 8` array `x`: for every row `b`, eight columns `x (b, ·, d)`, `d = 0 … 7`, each of length 4.
  The output is the `R × 4^8` array whose entry at `(b, j)` is the product over the eight columns of the column's entry at
  the matching base-4 digit of `j`, digit 0 the most significant (so the last column's digit varies fastest):

      outer x (b, j) = ∏_{d < 8} x (b, digit_d j, d),   digit_d j = ⌊j / 4^(7-d)⌋ mod 4.

  A program that builds the product from the last column inward meets the factors nested to the right, one that builds it
  from the first column outward meets them nested to the left; the two are this one product by associativity of the
  multiplication of extended reals, which holds at the infinities too — no finiteness of the entries is used.
-/
import Idealize.ShloMosaic.Lib.ValueIdx
import Idealize.ShloMosaic.PureOps.Ideal
import Mathlib.Algebra.BigOperators.Fin

noncomputable section

open scoped BigOperators

namespace OuterSpec

open Idealize.ShloMosaic Idealize.ShloMosaic.ValueIdx

/-- The base-4 digit `d` of a column index below `4^8`; digit 0 is the most significant. -/
def dig (j : Fin 65536) (d : Fin 8) : Fin 4 := ⟨j.val / 4 ^ (7 - d.val) % 4, Nat.mod_lt _ (by norm_num)⟩

theorem dig_val (j : Fin 65536) (d : Fin 8) : (dig j d).val = j.val / 4 ^ (7 - d.val) % 4 := rfl

/-- The digits one by one, with the powers of four written out. -/
theorem dig0 (j : Fin 65536) : (dig j 0).val = j.val / 16384 % 4 := rfl
theorem dig1 (j : Fin 65536) : (dig j 1).val = j.val / 4096 % 4 := rfl
theorem dig2 (j : Fin 65536) : (dig j 2).val = j.val / 1024 % 4 := rfl
theorem dig3 (j : Fin 65536) : (dig j 3).val = j.val / 256 % 4 := rfl
theorem dig4 (j : Fin 65536) : (dig j 4).val = j.val / 64 % 4 := rfl
theorem dig5 (j : Fin 65536) : (dig j 5).val = j.val / 16 % 4 := rfl
theorem dig6 (j : Fin 65536) : (dig j 6).val = j.val / 4 % 4 := rfl
theorem dig7 (j : Fin 65536) : (dig j 7).val = j.val / 1 % 4 := rfl

variable {R : ℕ}

/-- The outer product of the eight columns of every row, flattened with the last column's digit fastest. -/
def outer (x : (⟨3, ![R, 4, 8]⟩ : Shape).Idx → EReal) : (⟨2, ![R, 65536]⟩ : Shape).Idx → EReal :=
  fun i => ∏ d : Fin 8, x (ix3 (i 0) (dig (i 1) d) d)

theorem outer_apply (x : (⟨3, ![R, 4, 8]⟩ : Shape).Idx → EReal) (b : Fin R) (j : Fin 65536) :
    outer x (ix2 b j) = ∏ d : Fin 8, x (ix3 b (dig j d) d) := rfl

/-- The product with its factors nested to the LEFT, first column innermost. -/
theorem outer_left (x : (⟨3, ![R, 4, 8]⟩ : Shape).Idx → EReal) (b : Fin R) (j : Fin 65536) :
    outer x (ix2 b j) =
      x (ix3 b (dig j 0) 0) * x (ix3 b (dig j 1) 1) * x (ix3 b (dig j 2) 2) * x (ix3 b (dig j 3) 3)
        * x (ix3 b (dig j 4) 4) * x (ix3 b (dig j 5) 5) * x (ix3 b (dig j 6) 6) * x (ix3 b (dig j 7) 7) := by
  rw [outer_apply, Fin.prod_univ_eight]

/-- The product with its factors nested to the RIGHT, last column innermost: the same number, by associativity. -/
theorem outer_right (x : (⟨3, ![R, 4, 8]⟩ : Shape).Idx → EReal) (b : Fin R) (j : Fin 65536) :
    outer x (ix2 b j) =
      x (ix3 b (dig j 0) 0) * (x (ix3 b (dig j 1) 1) * (x (ix3 b (dig j 2) 2) * (x (ix3 b (dig j 3) 3)
        * (x (ix3 b (dig j 4) 4) * (x (ix3 b (dig j 5) 5) * (x (ix3 b (dig j 6) 6) * x (ix3 b (dig j 7) 7))))))) := by
  rw [outer_left]
  simp only [mul_assoc]

end OuterSpec

end
-- ==== Proof.KernelBlock.lean ====
/-
  What the kernel's body leaves in one output block.

  The body loads a `16 × 4 × 8` block `P` (sixteen rows, eight columns of length 4 each) and builds a `16 × 4^8` block:
  it starts from the last column, `cp = P (·, ·, 7)`, and for `d = 6, 5, …, 0` replaces `cp` by the four copies
  `P (·, n, d) * cp`, `n = 0 … 3`, laid side by side. Each round is one application of `step` (four scaled copies side
  by side), which reads at `(b, j)` as `P (b, j / w, d) * cp (b, j % w)`, `w` the width before the round. So the new
  column's digit is the slowest one, and after the seven rounds the entry at `(b, j)` is the product of the eight columns'
  entries at the base-4 digits of `j`, nested to the right: `OuterSpec.outer P (b, j)`.
-/
import proofs.«138377_j66692252172661_2_alg».proof.Proof.Gen.KernelIdeal.Skeleton
import proofs.«138377_j66692252172661_2_alg».proof.Proof.LibScaledConcat
import proofs.«138377_j66692252172661_2_alg».proof.Proof.OuterSpec
import Idealize.ShloMosaic.Lib.Pipeline.Value
import Idealize.ShloMosaic.Lib.ValueIdx

noncomputable section

namespace Cert.KernelIdeal.Block

open Cert.KernelIdeal Cert.KernelIdeal.Gen
open Idealize.ShloMosaic Idealize.ShloMosaic.ValueIdx ScaledConcat OuterSpec

/-- Column `d` of the block as a `16 × 4` array: the slice `P (·, ·, d)` with its unit axis dropped. -/
def colK (P : Vec Ideal S16x4x8 .f32) (d : ℕ) (hs : S16x4x8.Slices ![0, 0, d] S16x4x1) : FVec Ideal S16x4 .f32 :=
  shapeCast S16x4 (extractStridedSlice S16x4x1 ![0, 0, d] P hs) shapeCasts_S16x4x1_S16x4

/-- It reads `P (b, n, d)` at `(b, n)`. -/
theorem colK_apply (P : Vec Ideal S16x4x8 .f32) (d : ℕ) (hs : S16x4x8.Slices ![0, 0, d] S16x4x1)
    (b : Fin 16) (n : Fin 4) (e : Fin 8) (he : e.val = d) : colK P d hs (ix2 b n) = P (ix3 b n e) := by
  unfold colK
  refine (shapeCast_apply _ shapeCasts_S16x4x1_S16x4 (ix2 b n) (ix3 b n (0 : Fin 1)) ?_).trans ?_
  · rw [Shape.rowMajor_val_three, Shape.rowMajor_val_two]
    show (b.val * 4 + n.val) * 1 + 0 = b.val * 4 + n.val
    omega
  · exact extractStridedSlice_apply ![0, 0, d] P hs (ix3 b n (0 : Fin 1)) (ix3 b n e) (fun ax => by
      match ax with
      | ⟨0, _⟩ => show b.val = 0 + b.val; omega
      | ⟨1, _⟩ => show n.val = 0 + n.val; omega
      | ⟨2, _⟩ => show e.val = d + 0; omega)

/-- One round: the four copies of `cp` scaled by the four columns of `col`, side by side. -/
def step {w W : ℕ} (col : FVec Ideal S16x4 .f32) (cp : FVec Ideal ⟨2, ![16, w]⟩ .f32)
    (hb : (⟨2, ![16, 1]⟩ : Shape).Broadcasts ⟨2, ![16, w]⟩)
    (hcat : Shape.Concatenates [⟨2, ![16, w]⟩, ⟨2, ![16, w]⟩, ⟨2, ![16, w]⟩, ⟨2, ![16, w]⟩] ⟨2, ![16, W]⟩ 1) :
    FVec Ideal ⟨2, ![16, W]⟩ .f32 :=
  concatenate ⟨2, ![16, W]⟩ 1
    [⟨⟨2, ![16, w]⟩, scaled col cp 0 slices_S16x4_o0_0_S16x1 hb⟩, ⟨⟨2, ![16, w]⟩, scaled col cp 1 slices_S16x4_o0_1_S16x1 hb⟩,
     ⟨⟨2, ![16, w]⟩, scaled col cp 2 slices_S16x4_o0_2_S16x1 hb⟩, ⟨⟨2, ![16, w]⟩, scaled col cp 3 slices_S16x4_o0_3_S16x1 hb⟩] hcat

/-- A round at `(b, j)`: the scaling entry at the quotient `n = j / w` times the previous value at the remainder `r = j % w`. -/
theorem step_apply {w W : ℕ} (col : FVec Ideal S16x4 .f32) (cp : FVec Ideal ⟨2, ![16, w]⟩ .f32)
    (hb : (⟨2, ![16, 1]⟩ : Shape).Broadcasts ⟨2, ![16, w]⟩)
    (hcat : Shape.Concatenates [⟨2, ![16, w]⟩, ⟨2, ![16, w]⟩, ⟨2, ![16, w]⟩, ⟨2, ![16, w]⟩] ⟨2, ![16, W]⟩ 1)
    (b : Fin 16) (j : Fin W) (n : Fin 4) (hn : j.val / w = n.val) (r : Fin w) (hr : r.val = j.val % w) :
    step col cp hb hcat (ix2 b j) = col (ix2 b n) * cp (ix2 b r) :=
  concat4_apply col cp _ _ _ _ hb hcat b j n hn r hr

/-! ## The body's payload is seven rounds -/

variable (P : Vec Ideal S16x4x8 .f32)

/-- The rounds for columns 6, 5, 4: the value of width `4^4` the body computes first. -/
theorem pay2_eq : k0_pay2 P =
    step (colK P 4 slices_S16x4x8_o0_0_4_S16x4x1)
      (step (colK P 5 slices_S16x4x8_o0_0_5_S16x4x1)
        (step (colK P 6 slices_S16x4x8_o0_0_6_S16x4x1) (colK P 7 slices_S16x4x8_o0_0_7_S16x4x1)
          broadcasts_S16x1_S16x4 concatenates_S16x4_S16x4_S16x4_S16x4_S16x16_d1)
        broadcasts_S16x1_S16x16 concatenates_S16x16_S16x16_S16x16_S16x16_S16x64_d1)
      broadcasts_S16x1_S16x64 concatenates_S16x64_S16x64_S16x64_S16x64_S16x256_d1 := rfl

theorem pay3_eq : k0_pay3 P = colK P 3 slices_S16x4x8_o0_0_3_S16x4x1 := rfl

theorem pay4_eq : k0_pay4 P = scaled (k0_pay3 P) (k0_pay2 P) 0 slices_S16x4_o0_0_S16x1 broadcasts_S16x1_S16x256 := rfl

theorem pay5_eq : k0_pay5 P = scaled (k0_pay3 P) (k0_pay2 P) 1 slices_S16x4_o0_1_S16x1 broadcasts_S16x1_S16x256 := rfl

/-- The rest of the body, over the width-`4^4` value `v47` and column 3 `v49` as variables: the round for column 3
    (its first two copies handed in), then the rounds for columns 2, 1, 0. -/
theorem pay1_eq (v47 : FVec Ideal S16x256 .f32) (v49 : FVec Ideal S16x4 .f32) :
    k0_pay1 P v47 v49 (scaled v49 v47 0 slices_S16x4_o0_0_S16x1 broadcasts_S16x1_S16x256)
        (scaled v49 v47 1 slices_S16x4_o0_1_S16x1 broadcasts_S16x1_S16x256) =
      step (colK P 0 slices_S16x4x8_o0_0_0_S16x4x1)
        (step (colK P 1 slices_S16x4x8_o0_0_1_S16x4x1)
          (step (colK P 2 slices_S16x4x8_o0_0_2_S16x4x1)
            (step v49 v47 broadcasts_S16x1_S16x256 concatenates_S16x256_S16x256_S16x256_S16x256_S16x1024_d1)
            broadcasts_S16x1_S16x1024 concatenates_S16x1024_S16x1024_S16x1024_S16x1024_S16x4096_d1)
          broadcasts_S16x1_S16x4096 concatenates_S16x4096_S16x4096_S16x4096_S16x4096_S16x16384_d1)
        broadcasts_S16x1_S16x16384 concatenates_S16x16384_S16x16384_S16x16384_S16x16384_S16x65536_d1 := rfl

/-- The body's stored value: the rounds for columns 3, 2, 1, 0 over the width-`4^4` value. -/
theorem payload_eq : k0_pay1 P (k0_pay2 P) (k0_pay3 P) (k0_pay4 P) (k0_pay5 P) =
    step (colK P 0 slices_S16x4x8_o0_0_0_S16x4x1)
      (step (colK P 1 slices_S16x4x8_o0_0_1_S16x4x1)
        (step (colK P 2 slices_S16x4x8_o0_0_2_S16x4x1)
          (step (colK P 3 slices_S16x4x8_o0_0_3_S16x4x1) (k0_pay2 P)
            broadcasts_S16x1_S16x256 concatenates_S16x256_S16x256_S16x256_S16x256_S16x1024_d1)
          broadcasts_S16x1_S16x1024 concatenates_S16x1024_S16x1024_S16x1024_S16x1024_S16x4096_d1)
        broadcasts_S16x1_S16x4096 concatenates_S16x4096_S16x4096_S16x4096_S16x4096_S16x16384_d1)
      broadcasts_S16x1_S16x16384 concatenates_S16x16384_S16x16384_S16x16384_S16x16384_S16x65536_d1 := by
  rw [pay4_eq, pay5_eq, pay1_eq, pay3_eq]

/-! ## The block at an index

Round after round the column index splits into its leading base-4 digit, which picks the scaling entry, and the rest,
which indexes the previous value: `j = digit_0 · 4^7 + (j mod 4^7)`, then `j mod 4^7 = digit_1 · 4^6 + (j mod 4^6)`, and
so on down to the last digit. -/

/-- The stored block at `(b, j)` is the product of the eight columns' entries at the digits of `j`. -/
theorem block_apply (b : Fin 16) (j : Fin 65536) :
    k0_pay1 P (k0_pay2 P) (k0_pay3 P) (k0_pay4 P) (k0_pay5 P) (ix2 b j) = outer (R := 16) P (ix2 b j) := by
  have hj : j.val < 65536 := j.isLt
  rw [payload_eq, pay2_eq, outer_right]
  rw [step_apply (w := 16384) (W := 65536) _ _ _ _ b j (dig j 0)
      (by rw [dig0]; omega) ⟨j.val % 16384, by omega⟩ rfl]
  rw [step_apply (w := 4096) (W := 16384) _ _ _ _ b ⟨j.val % 16384, by omega⟩ (dig j 1)
      (by rw [dig1]; show j.val % 16384 / 4096 = _; omega) ⟨j.val % 4096, by omega⟩
      (by show j.val % 4096 = j.val % 16384 % 4096; omega)]
  rw [step_apply (w := 1024) (W := 4096) _ _ _ _ b ⟨j.val % 4096, by omega⟩ (dig j 2)
      (by rw [dig2]; show j.val % 4096 / 1024 = _; omega) ⟨j.val % 1024, by omega⟩
      (by show j.val % 1024 = j.val % 4096 % 1024; omega)]
  rw [step_apply (w := 256) (W := 1024) _ _ _ _ b ⟨j.val % 1024, by omega⟩ (dig j 3)
      (by rw [dig3]; show j.val % 1024 / 256 = _; omega) ⟨j.val % 256, by omega⟩
      (by show j.val % 256 = j.val % 1024 % 256; omega)]
  rw [step_apply (w := 64) (W := 256) _ _ _ _ b ⟨j.val % 256, by omega⟩ (dig j 4)
      (by rw [dig4]; show j.val % 256 / 64 = _; omega) ⟨j.val % 64, by omega⟩
      (by show j.val % 64 = j.val % 256 % 64; omega)]
  rw [step_apply (w := 16) (W := 64) _ _ _ _ b ⟨j.val % 64, by omega⟩ (dig j 5)
      (by rw [dig5]; show j.val % 64 / 16 = _; omega) ⟨j.val % 16, by omega⟩
      (by show j.val % 16 = j.val % 64 % 16; omega)]
  rw [step_apply (w := 4) (W := 16) _ _ _ _ b ⟨j.val % 16, by omega⟩ (dig j 6)
      (by rw [dig6]; show j.val % 16 / 4 = _; omega) (dig j 7)
      (by rw [dig7]; show j.val / 1 % 4 = j.val % 16 % 4; omega)]
  rw [colK_apply P 0 _ b (dig j 0) 0 rfl, colK_apply P 1 _ b (dig j 1) 1 rfl, colK_apply P 2 _ b (dig j 2) 2 rfl,
    colK_apply P 3 _ b (dig j 3) 3 rfl, colK_apply P 4 _ b (dig j 4) 4 rfl, colK_apply P 5 _ b (dig j 5) 5 rfl,
    colK_apply P 6 _ b (dig j 6) 6 rfl, colK_apply P 7 _ b (dig j 7) 7 rfl]

/-- The stored block IS the outer product of the loaded block's columns. -/
theorem block_eq : k0_pay1 P (k0_pay2 P) (k0_pay3 P) (k0_pay4 P) (k0_pay5 P) = outer (R := 16) P := by
  funext y
  obtain ⟨b, j, rfl⟩ : ∃ (b : Fin 16) (j : Fin 65536), y = ix2 b j := ⟨y 0, y 1, eq_ix2 y⟩
  exact block_apply P b j

end Cert.KernelIdeal.Block

end
-- ==== Proof.KernelValue.lean ====
/-
  The kernel's output array after the run.

  The grid has 32 points; point `t` stages rows `16 t … 16 t + 15` of the `512 × 4 × 8` argument and writes back rows
  `16 t … 16 t + 15` of the `512 × 4^8` result, all `4^8` columns. What it writes is the outer product of the staged rows'
  columns (`Block.block_eq`), and the outer product is taken row by row, so this is rows `16 t … 16 t + 15` of the outer
  product of the whole argument. Every row lies in exactly one such block (`t = row / 16`), so after the run the result
  array is `OuterSpec.outer` of the argument array, and the argument is unchanged.
-/
import proofs.«138377_j66692252172661_2_alg».proof.Proof.Gen.KernelIdeal.Frame
import proofs.«138377_j66692252172661_2_alg».proof.Proof.KernelBlock
import Idealize.ShloMosaic.Lib.Pipeline.Value

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx OuterSpec
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The index maps over the 32 grid points: both windows' blocks are numbered by the point along the rows and are the
    only block along every other axis. -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- The outer product of a block of rows is that block of rows of the outer product. -/
theorem outer_rows (X : (⟨3, ![512, 4, 8]⟩ : Shape).Idx → EReal) (Pb : (⟨3, ![16, 4, 8]⟩ : Shape).Idx → EReal)
    (b : Fin 16) (B : Fin 512) (hP : ∀ (n : Fin 4) (d : Fin 8), Pb (ix3 b n d) = X (ix3 B n d)) (j : Fin 65536) :
    outer Pb (ix2 b j) = outer X (ix2 B j) := by
  rw [outer_apply, outer_apply]
  exact Finset.prod_congr rfl fun d _ => hP (dig j d) d

/-- What point `t` writes back is its block of the outer product of the argument array. -/
theorem flushed_eq (c : Dev nD) (t : Fin cfg0.N) :
    (dats m 0 c).flushed 1 t = ((cfg0.win 1).blk t).view.read (Elt Ideal) (outer (R := 512) (V m c main_arg0)) := by
  show (cfg0.win 1).cut (grid0.coords t) ((dats m 0 c).after 1 t) = _
  rw [after0_1]
  unfold out0_1
  rw [View.canon_unit_zero zero2]
  simp only [View.ld_unit_zero (S := S16x4x8) zero3]
  rw [Block.block_eq]
  obtain ⟨e0, e1, e2, e3, e4⟩ := idx_facts t
  have ht : t.val < 32 := t.isLt
  funext y
  have hy0 : (y 0).val < 16 := (y 0).isLt
  have hy1 : (y 1).val < 65536 := (y 1).isLt
  show outer (R := 16) (iblk m c 0 t) (ix2 ⟨(y 0).val, hy0⟩ ⟨(y 1).val, hy1⟩)
    = outer (R := 512) (V m c main_arg0) (((cfg0.win 1).blk t).view.emb y)
  have hemb : ((cfg0.win 1).blk t).view.emb y = ix2 (⟨t.val * 16 + (y 0).val, by omega⟩ : Fin 512) ⟨(y 1).val, hy1⟩ := by
    funext a; apply Fin.ext
    match a with
    | ⟨0, _⟩ => show win0_1.index t (0 : Fin 2) * 16 + 1 * (y 0).val = t.val * 16 + (y 0).val; omega
    | ⟨1, _⟩ => show win0_1.index t (1 : Fin 2) * 65536 + 1 * (y 1).val = (y 1).val; omega
  rw [hemb]
  refine outer_rows _ _ _ _ (fun n d => ?_) _
  show V m c main_arg0 (((cfg0.win 0).blk t).view.emb (ix3 ⟨(y 0).val, hy0⟩ n d)) = _
  refine congrArg (V m c main_arg0) (funext fun a => Fin.ext ?_)
  match a with
  | ⟨0, _⟩ => show win0_0.index t (0 : Fin 3) * 16 + 1 * (y 0).val = t.val * 16 + (y 0).val; omega
  | ⟨1, _⟩ => show win0_0.index t (1 : Fin 3) * 4 + 1 * n.val = n.val; omega
  | ⟨2, _⟩ => show win0_0.index t (2 : Fin 3) * 8 + 1 * d.val = d.val; omega

/-- An index of the result array is in point `t`'s block iff each coordinate is in the block's range on its axis. -/
theorem mem_blk (t : Fin cfg0.N) (i : S512x65536.Idx) :
    i ∈ ((cfg0.win 1).blk t).view.set ↔ ∀ a : Fin 2, win0_1.index t a * S16x65536.size a ≤ (i a).val
      ∧ (i a).val < win0_1.index t a * S16x65536.size a + S16x65536.size a := by
  show i ∈ ((View.whole main_v0).slice (win0_1.rect t)).set ↔ _
  rw [View.set_slice_whole, Rect.mem_set_unit]
  exact Iff.rfl

/-- Every index of the result array is in the block of the point its row names. -/
theorem cover (i : S512x65536.Idx) :
    ∃ t : Fin cfg0.N, (cfg0.win 1).flush t = true ∧ i ∈ ((cfg0.win 1).blk t).view.set := by
  have hi0 : (i 0).val < 512 := (i 0).isLt
  have hi1 : (i 1).val < 65536 := (i 1).isLt
  refine ⟨⟨(i 0).val / 16, by show (i 0).val / 16 < 32; omega⟩, flush0_1 _, ?_⟩
  rw [mem_blk]
  obtain ⟨-, -, -, e3, e4⟩ := idx_facts ⟨(i 0).val / 16, by show (i 0).val / 16 < 32; omega⟩
  intro a
  match a with
  | ⟨0, _⟩ =>
    show win0_1.index _ (0 : Fin 2) * 16 ≤ (i 0).val ∧ (i 0).val < win0_1.index _ (0 : Fin 2) * 16 + 16
    rw [e3]; show (i 0).val / 16 * 16 ≤ (i 0).val ∧ (i 0).val < (i 0).val / 16 * 16 + 16; omega
  | ⟨1, _⟩ =>
    show win0_1.index _ (1 : Fin 2) * 65536 ≤ (i 1).val ∧ (i 1).val < win0_1.index _ (1 : Fin 2) * 65536 + 65536
    rw [e4]; omega

/-- The result array after the run is the outer product of the argument array. -/
theorem final (c : Dev nD) :
    (dats m 0 c).arrAt 1 cfg0.N = outer (R := 512) (m ((c : Thread nD τ).loc main_arg0)) :=
  (dats m 0 c).arrAt_eq_of_cover 1 (outer (R := 512) (V m c main_arg0)) (fun t _ => flushed_eq m c t) cover

/-- The kernel's run: every weakly fair execution terminates, without a fault, with the result array at the outer product
    of the argument array and the argument array unchanged. -/
theorem run : θ_run defs (onTc (τ := τ) (main (F := Ideal))) ⟨m, fun _ => 0, ρ⟩ fun r => ∀ c : Dev nD,
      r.2.mem ((c : Thread nD τ).loc main_v0) = outer (R := 512) (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.Whole

end
-- ==== Proof.ReferenceValue.lean ====
/-
  The reference's result array, read at an index.

  The reference starts from the first column, `cp = x (·, ·, 0)` (a `512 × 4` array), and for `d = 1, …, 7` forms the
  `512 × K × 4` array `cp (b, k) * x (b, n, d)` and flattens its last two axes, `(k, n) ↦ 4 k + n`. So at every level the
  value at `(b, jj)` is the previous value at `(b, jj / 4)` times column `d`'s entry at `jj % 4`: the new column's digit is
  the fastest one. Unwinding the seven levels from the result, the column index `j` is divided by four again and again, the
  remainders being the base-4 digits of `j` from the last to the first, and the factors come out nested to the left:
  the result array is `OuterSpec.outer` of the argument array.
-/
import proofs.«138377_j66692252172661_2_alg».proof.Proof.Gen.ReferenceIdeal.Read
import proofs.«138377_j66692252172661_2_alg».proof.Proof.OuterSpec
import Idealize.ShloMosaic.Lib.ValueIdx

noncomputable section

namespace Cert.ReferenceIdeal.Whole

open Cert.ReferenceIdeal Cert.ReferenceIdeal.Gen Cert.ReferenceIdeal.Read
open Idealize.ShloMosaic Idealize.ShloMosaic.ValueIdx OuterSpec

/-- The first column as a `512 × 4` array reads `x (b, n, 0)` at `(b, n)`. -/
theorem level0 (x0 : (⟨S512x4x8, .f32⟩ : BufTy).Contents (Elt Ideal)) (b : Fin 512) (n : Fin 4) :
    val_main_v1 (F := Ideal) x0 (ix2 b n) = x0 (ix3 b n (0 : Fin 8)) := by
  have hb : b.val < 512 := b.isLt
  have hn : n.val < 4 := n.isLt
  rw [val_main_v1_apply, val_main_v0_apply]
  refine congrArg x0 (funext fun ax => Fin.ext ?_)
  match ax with
  | ⟨0, _⟩ => show (b.val * 4 + n.val) / 4 = b.val; omega
  | ⟨1, _⟩ => show (b.val * 4 + n.val) / 1 % 4 = n.val; omega
  | ⟨2, _⟩ => rfl

/-- Level 1: the `512 × 16` value at `(b, jj)` is the `512 × 4` value at `(b, jj / 4)` times column 1's entry at `jj % 4`. -/
theorem level1 (x0 : (⟨S512x4x8, .f32⟩ : BufTy).Contents (Elt Ideal)) (b : Fin 512) (jj : Fin 16) (q : Fin 4)
    (hq : q.val = jj.val / 4) (n : Fin 4) (hn : n.val = jj.val % 4) :
    val_main_v9 (F := Ideal) x0 (ix2 b jj) = val_main_v1 (F := Ideal) x0 (ix2 b q) * x0 (ix3 b n (1 : Fin 8)) := by
  have hb : b.val < 512 := b.isLt
  have hj : jj.val < 16 := jj.isLt
  rw [val_main_v9_apply, val_main_v8_apply, val_main_v6_apply, val_main_v2_apply, val_main_v7_apply,
    val_main_v5_apply, val_main_v4_apply, val_main_v3_apply]
  have e1 : idx_main_v2 (idx_main_v6 (idx_main_v9 (ix2 b jj))) = ix2 b q := by
    funext ax; apply Fin.ext
    match ax with
    | ⟨0, _⟩ => show (b.val * 16 + jj.val) / 16 = b.val; omega
    | ⟨1, _⟩ => show (b.val * 16 + jj.val) / 4 % 4 = q.val; omega
  have e2 : idx_main_v3 (idx_main_v4 (idx_main_v5 (idx_main_v7 (idx_main_v9 (ix2 b jj)))))
      = ix3 b n (1 : Fin 8) := by
    funext ax; apply Fin.ext
    match ax with
    | ⟨0, _⟩ => show ((b.val * 16 + jj.val) / 16 * 4 + (b.val * 16 + jj.val) % 4) / 4 = b.val; omega
    | ⟨1, _⟩ => show ((b.val * 16 + jj.val) / 16 * 4 + (b.val * 16 + jj.val) % 4) / 1 % 4 = n.val; omega
    | ⟨2, _⟩ => rfl
  rw [e1, e2]
  rfl

/-- Level 2: the `512 × 64` value at `(b, jj)` is the `512 × 16` value at `(b, jj / 4)` times column 2's entry at `jj % 4`. -/
theorem level2 (x0 : (⟨S512x4x8, .f32⟩ : BufTy).Contents (Elt Ideal)) (b : Fin 512) (jj : Fin 64) (q : Fin 16)
    (hq : q.val = jj.val / 4) (n : Fin 4) (hn : n.val = jj.val % 4) :
    val_main_v17 (F := Ideal) x0 (ix2 b jj) = val_main_v9 (F := Ideal) x0 (ix2 b q) * x0 (ix3 b n (2 : Fin 8)) := by
  have hb : b.val < 512 := b.isLt
  have hj : jj.val < 64 := jj.isLt
  rw [val_main_v17_apply, val_main_v16_apply, val_main_v14_apply, val_main_v10_apply, val_main_v15_apply,
    val_main_v13_apply, val_main_v12_apply, val_main_v11_apply]
  have e1 : idx_main_v10 (idx_main_v14 (idx_main_v17 (ix2 b jj))) = ix2 b q := by
    funext ax; apply Fin.ext
    match ax with
    | ⟨0, _⟩ => show (b.val * 64 + jj.val) / 64 = b.val; omega
    | ⟨1, _⟩ => show (b.val * 64 + jj.val) / 4 % 16 = q.val; omega
  have e2 : idx_main_v11 (idx_main_v12 (idx_main_v13 (idx_main_v15 (idx_main_v17 (ix2 b jj)))))
      = ix3 b n (2 : Fin 8) := by
    funext ax; apply Fin.ext
    match ax with
    | ⟨0, _⟩ => show ((b.val * 64 + jj.val) / 64 * 4 + (b.val * 64 + jj.val) % 4) / 4 = b.val; omega
    | ⟨1, _⟩ => show ((b.val * 64 + jj.val) / 64 * 4 + (b.val * 64 + jj.val) % 4) / 1 % 4 = n.val; omega
    | ⟨2, _⟩ => rfl
  rw [e1, e2]
  rfl

/-- Level 3: the `512 × 256` value at `(b, jj)` is the `512 × 64` value at `(b, jj / 4)` times column 3's entry at `jj % 4`. -/
theorem level3 (x0 : (⟨S512x4x8, .f32⟩ : BufTy).Contents (Elt Ideal)) (b : Fin 512) (jj : Fin 256) (q : Fin 64)
    (hq : q.val = jj.val / 4) (n : Fin 4) (hn : n.val = jj.val % 4) :
    val_main_v25 (F := Ideal) x0 (ix2 b jj) = val_main_v17 (F := Ideal) x0 (ix2 b q) * x0 (ix3 b n (3 : Fin 8)) := by
  have hb : b.val < 512 := b.isLt
  have hj : jj.val < 256 := jj.isLt
  rw [val_main_v25_apply, val_main_v24_apply, val_main_v22_apply, val_main_v18_apply, val_main_v23_apply,
    val_main_v21_apply, val_main_v20_apply, val_main_v19_apply]
  have e1 : idx_main_v18 (idx_main_v22 (idx_main_v25 (ix2 b jj))) = ix2 b q := by
    funext ax; apply Fin.ext
    match ax with
    | ⟨0, _⟩ => show (b.val * 256 + jj.val) / 256 = b.val; omega
    | ⟨1, _⟩ => show (b.val * 256 + jj.val) / 4 % 64 = q.val; omega
  have e2 : idx_main_v19 (idx_main_v20 (idx_main_v21 (idx_main_v23 (idx_main_v25 (ix2 b jj)))))
      = ix3 b n (3 : Fin 8) := by
    funext ax; apply Fin.ext
    match ax with
    | ⟨0, _⟩ => show ((b.val * 256 + jj.val) / 256 * 4 + (b.val * 256 + jj.val) % 4) / 4 = b.val; omega
    | ⟨1, _⟩ => show ((b.val * 256 + jj.val) / 256 * 4 + (b.val * 256 + jj.val) % 4) / 1 % 4 = n.val; omega
    | ⟨2, _⟩ => rfl
  rw [e1, e2]
  rfl

/-- Level 4: the `512 × 1024` value at `(b, jj)` is the `512 × 256` value at `(b, jj / 4)` times column 4's entry at `jj % 4`. -/
theorem level4 (x0 : (⟨S512x4x8, .f32⟩ : BufTy).Contents (Elt Ideal)) (b : Fin 512) (jj : Fin 1024) (q : Fin 256)
    (hq : q.val = jj.val / 4) (n : Fin 4) (hn : n.val = jj.val % 4) :
    val_main_v33 (F := Ideal) x0 (ix2 b jj) = val_main_v25 (F := Ideal) x0 (ix2 b q) * x0 (ix3 b n (4 : Fin 8)) := by
  have hb : b.val < 512 := b.isLt
  have hj : jj.val < 1024 := jj.isLt
  rw [val_main_v33_apply, val_main_v32_apply, val_main_v30_apply, val_main_v26_apply, val_main_v31_apply,
    val_main_v29_apply, val_main_v28_apply, val_main_v27_apply]
  have e1 : idx_main_v26 (idx_main_v30 (idx_main_v33 (ix2 b jj))) = ix2 b q := by
    funext ax; apply Fin.ext
    match ax with
    | ⟨0, _⟩ => show (b.val * 1024 + jj.val) / 1024 = b.val; omega
    | ⟨1, _⟩ => show (b.val * 1024 + jj.val) / 4 % 256 = q.val; omega
  have e2 : idx_main_v27 (idx_main_v28 (idx_main_v29 (idx_main_v31 (idx_main_v33 (ix2 b jj)))))
      = ix3 b n (4 : Fin 8) := by
    funext ax; apply Fin.ext
    match ax with
    | ⟨0, _⟩ => show ((b.val * 1024 + jj.val) / 1024 * 4 + (b.val * 1024 + jj.val) % 4) / 4 = b.val; omega
    | ⟨1, _⟩ => show ((b.val * 1024 + jj.val) / 1024 * 4 + (b.val * 1024 + jj.val) % 4) / 1 % 4 = n.val; omega
    | ⟨2, _⟩ => rfl
  rw [e1, e2]
  rfl

/-- Level 5: the `512 × 4096` value at `(b, jj)` is the `512 × 1024` value at `(b, jj / 4)` times column 5's entry at `jj % 4`. -/
theorem level5 (x0 : (⟨S512x4x8, .f32⟩ : BufTy).Contents (Elt Ideal)) (b : Fin 512) (jj : Fin 4096) (q : Fin 1024)
    (hq : q.val = jj.val / 4) (n : Fin 4) (hn : n.val = jj.val % 4) :
    val_main_v41 (F := Ideal) x0 (ix2 b jj) = val_main_v33 (F := Ideal) x0 (ix2 b q) * x0 (ix3 b n (5 : Fin 8)) := by
  have hb : b.val < 512 := b.isLt
  have hj : jj.val < 4096 := jj.isLt
  rw [val_main_v41_apply, val_main_v40_apply, val_main_v38_apply, val_main_v34_apply, val_main_v39_apply,
    val_main_v37_apply, val_main_v36_apply, val_main_v35_apply]
  have e1 : idx_main_v34 (idx_main_v38 (idx_main_v41 (ix2 b jj))) = ix2 b q := by
    funext ax; apply Fin.ext
    match ax with
    | ⟨0, _⟩ => show (b.val * 4096 + jj.val) / 4096 = b.val; omega
    | ⟨1, _⟩ => show (b.val * 4096 + jj.val) / 4 % 1024 = q.val; omega
  have e2 : idx_main_v35 (idx_main_v36 (idx_main_v37 (idx_main_v39 (idx_main_v41 (ix2 b jj)))))
      = ix3 b n (5 : Fin 8) := by
    funext ax; apply Fin.ext
    match ax with
    | ⟨0, _⟩ => show ((b.val * 4096 + jj.val) / 4096 * 4 + (b.val * 4096 + jj.val) % 4) / 4 = b.val; omega
    | ⟨1, _⟩ => show ((b.val * 4096 + jj.val) / 4096 * 4 + (b.val * 4096 + jj.val) % 4) / 1 % 4 = n.val; omega
    | ⟨2, _⟩ => rfl
  rw [e1, e2]
  rfl

/-- Level 6: the `512 × 16384` value at `(b, jj)` is the `512 × 4096` value at `(b, jj / 4)` times column 6's entry at `jj % 4`. -/
theorem level6 (x0 : (⟨S512x4x8, .f32⟩ : BufTy).Contents (Elt Ideal)) (b : Fin 512) (jj : Fin 16384) (q : Fin 4096)
    (hq : q.val = jj.val / 4) (n : Fin 4) (hn : n.val = jj.val % 4) :
    val_main_v49 (F := Ideal) x0 (ix2 b jj) = val_main_v41 (F := Ideal) x0 (ix2 b q) * x0 (ix3 b n (6 : Fin 8)) := by
  have hb : b.val < 512 := b.isLt
  have hj : jj.val < 16384 := jj.isLt
  rw [val_main_v49_apply, val_main_v48_apply, val_main_v46_apply, val_main_v42_apply, val_main_v47_apply,
    val_main_v45_apply, val_main_v44_apply, val_main_v43_apply]
  have e1 : idx_main_v42 (idx_main_v46 (idx_main_v49 (ix2 b jj))) = ix2 b q := by
    funext ax; apply Fin.ext
    match ax with
    | ⟨0, _⟩ => show (b.val * 16384 + jj.val) / 16384 = b.val; omega
    | ⟨1, _⟩ => show (b.val * 16384 + jj.val) / 4 % 4096 = q.val; omega
  have e2 : idx_main_v43 (idx_main_v44 (idx_main_v45 (idx_main_v47 (idx_main_v49 (ix2 b jj)))))
      = ix3 b n (6 : Fin 8) := by
    funext ax; apply Fin.ext
    match ax with
    | ⟨0, _⟩ => show ((b.val * 16384 + jj.val) / 16384 * 4 + (b.val * 16384 + jj.val) % 4) / 4 = b.val; omega
    | ⟨1, _⟩ => show ((b.val * 16384 + jj.val) / 16384 * 4 + (b.val * 16384 + jj.val) % 4) / 1 % 4 = n.val; omega
    | ⟨2, _⟩ => rfl
  rw [e1, e2]
  rfl

/-- Level 7: the `512 × 65536` value at `(b, jj)` is the `512 × 16384` value at `(b, jj / 4)` times column 7's entry at `jj % 4`. -/
theorem level7 (x0 : (⟨S512x4x8, .f32⟩ : BufTy).Contents (Elt Ideal)) (b : Fin 512) (jj : Fin 65536) (q : Fin 16384)
    (hq : q.val = jj.val / 4) (n : Fin 4) (hn : n.val = jj.val % 4) :
    val_main_v57 (F := Ideal) x0 (ix2 b jj) = val_main_v49 (F := Ideal) x0 (ix2 b q) * x0 (ix3 b n (7 : Fin 8)) := by
  have hb : b.val < 512 := b.isLt
  have hj : jj.val < 65536 := jj.isLt
  rw [val_main_v57_apply, val_main_v56_apply, val_main_v54_apply, val_main_v50_apply, val_main_v55_apply,
    val_main_v53_apply, val_main_v52_apply, val_main_v51_apply]
  have e1 : idx_main_v50 (idx_main_v54 (idx_main_v57 (ix2 b jj))) = ix2 b q := by
    funext ax; apply Fin.ext
    match ax with
    | ⟨0, _⟩ => show (b.val * 65536 + jj.val) / 65536 = b.val; omega
    | ⟨1, _⟩ => show (b.val * 65536 + jj.val) / 4 % 16384 = q.val; omega
  have e2 : idx_main_v51 (idx_main_v52 (idx_main_v53 (idx_main_v55 (idx_main_v57 (ix2 b jj)))))
      = ix3 b n (7 : Fin 8) := by
    funext ax; apply Fin.ext
    match ax with
    | ⟨0, _⟩ => show ((b.val * 65536 + jj.val) / 65536 * 4 + (b.val * 65536 + jj.val) % 4) / 4 = b.val; omega
    | ⟨1, _⟩ => show ((b.val * 65536 + jj.val) / 65536 * 4 + (b.val * 65536 + jj.val) % 4) / 1 % 4 = n.val; omega
    | ⟨2, _⟩ => rfl
  rw [e1, e2]
  rfl

/-- The result at `(b, j)`: the seven levels unwound, the quotients `j / 4^k` indexing the earlier values and the digits
    of `j` picking the columns' entries. -/
theorem result_apply (x0 : (⟨S512x4x8, .f32⟩ : BufTy).Contents (Elt Ideal)) (b : Fin 512) (j : Fin 65536) :
    val_main_v57 (F := Ideal) x0 (ix2 b j) = outer (R := 512) x0 (ix2 b j) := by
  have hj : j.val < 65536 := j.isLt
  rw [outer_left]
  rw [level7 x0 b j ⟨j.val / 4, by omega⟩ rfl (dig j 7) (by rw [dig7]; omega)]
  rw [level6 x0 b ⟨j.val / 4, by omega⟩ ⟨j.val / 16, by omega⟩ (by show j.val / 16 = j.val / 4 / 4; omega) (dig j 6)
      (by rw [dig6])]
  rw [level5 x0 b ⟨j.val / 16, by omega⟩ ⟨j.val / 64, by omega⟩ (by show j.val / 64 = j.val / 16 / 4; omega) (dig j 5)
      (by rw [dig5])]
  rw [level4 x0 b ⟨j.val / 64, by omega⟩ ⟨j.val / 256, by omega⟩ (by show j.val / 256 = j.val / 64 / 4; omega) (dig j 4)
      (by rw [dig4])]
  rw [level3 x0 b ⟨j.val / 256, by omega⟩ ⟨j.val / 1024, by omega⟩ (by show j.val / 1024 = j.val / 256 / 4; omega) (dig j 3)
      (by rw [dig3])]
  rw [level2 x0 b ⟨j.val / 1024, by omega⟩ ⟨j.val / 4096, by omega⟩ (by show j.val / 4096 = j.val / 1024 / 4; omega) (dig j 2)
      (by rw [dig2])]
  rw [level1 x0 b ⟨j.val / 4096, by omega⟩ (dig j 0) (by rw [dig0]; show j.val / 16384 % 4 = j.val / 4096 / 4; omega) (dig j 1)
      (by rw [dig1])]
  rw [level0 x0 b (dig j 0)]

/-- The reference's result array IS the outer product of the argument array. -/
theorem result_eq (x0 : (⟨S512x4x8, .f32⟩ : BufTy).Contents (Elt Ideal)) :
    val_main_v57 (F := Ideal) x0 = outer (R := 512) x0 := by
  funext y
  obtain ⟨b, j, rfl⟩ : ∃ (b : Fin 512) (j : Fin 65536), y = ix2 b j := ⟨y 0, y 1, eq_ix2 y⟩
  exact result_apply x0 b j

end Cert.ReferenceIdeal.Whole

end
-- ==== Proof.lean ====
/-
  The kernel and its reference compute the same array over the extended reals.

  Both take a `512 × 4 × 8` array `x` — for every row eight columns of length 4 — and return the `512 × 4^8` array of the
  rows' outer products, `(b, j) ↦ ∏_{d < 8} x (b, digit_d j, d)` with `digit_d j` the base-4 digits of `j`, the last column's
  digit fastest (`OuterSpec.outer`).
  * The kernel works on blocks of 16 rows. In a block it starts from the last column and, column by column towards the first,
    lays four scaled copies of what it has side by side, so each new column's digit is the slowest: the factors come out
    nested to the right (`Cert.KernelIdeal.Block`). The 32 blocks tile the result, and the outer product is taken row by
    row, so the result array is `outer x` (`Cert.KernelIdeal.Whole.run`).
  * The reference starts from the first column and, column by column towards the last, multiplies `cp (b, k) * x (b, n, d)`
    and flattens `(k, n) ↦ 4 k + n`, so each new column's digit is the fastest: the factors come out nested to the left
    (`Cert.ReferenceIdeal.Whole.result_eq`).
  The two nestings are one product by associativity of the multiplication of extended reals, which holds at the infinities
  as well: the finiteness of the input is not used. The three frames are the generated ones (the reference's is its run with
  the result dropped); the idealization rewrote no operation, so there is nothing to preserve.
-/
import proofs.«138377_j66692252172661_2_alg».proof.Defs
import proofs.«138377_j66692252172661_2_alg».proof.Proof.Gen.Kernel
import proofs.«138377_j66692252172661_2_alg».proof.Proof.Gen.Kernel.Skeleton
import proofs.«138377_j66692252172661_2_alg».proof.Proof.Gen.Kernel.Launch
import proofs.«138377_j66692252172661_2_alg».proof.Proof.Gen.Kernel.Points
import proofs.«138377_j66692252172661_2_alg».proof.Proof.Gen.Kernel.Frame
import proofs.«138377_j66692252172661_2_alg».proof.Proof.Gen.KernelIdeal
import proofs.«138377_j66692252172661_2_alg».proof.Proof.Gen.KernelIdeal.Skeleton
import proofs.«138377_j66692252172661_2_alg».proof.Proof.Gen.KernelIdeal.Launch
import proofs.«138377_j66692252172661_2_alg».proof.Proof.Gen.KernelIdeal.Points
import proofs.«138377_j66692252172661_2_alg».proof.Proof.Gen.KernelIdeal.Frame
import proofs.«138377_j66692252172661_2_alg».proof.Proof.Gen.ReferenceIdeal
import proofs.«138377_j66692252172661_2_alg».proof.Proof.Gen.Pre_finite_inputs
import proofs.«138377_j66692252172661_2_alg».proof.Proof.Gen.ReferenceIdeal.Run
import proofs.«138377_j66692252172661_2_alg».proof.Proof.Gen.ReferenceIdeal.Read
import proofs.«138377_j66692252172661_2_alg».proof.Proof.KernelValue
import proofs.«138377_j66692252172661_2_alg».proof.Proof.ReferenceValue
import Idealize.ShloMosaic.Adequacy
import Idealize.ShloMosaic.Init

noncomputable section

namespace Cert.Proof

open Idealize.ShloMosaic Idealize.SL.Sem

/-- The kernel as printed runs and leaves its argument unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the argument, the idealized kernel ends with its result array at the outer product of the
    argument's columns, and so does the reference. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, Cert.ReferenceIdeal.Whole.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
